-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x512x128 : Shape := ⟨4, ![8, 64, 512, 128]⟩
abbrev S19x4 : Shape := ⟨2, ![19, 4]⟩
abbrev S8x128 : Shape := ⟨2, ![8, 128]⟩
abbrev S_ : Shape := ⟨0, ![]⟩

class Facts : Prop where
  bcast_S_S8x64x512x128 : S_.BroadcastsInDim S8x64x512x128 (![] : Fin 0 → Fin S8x64x512x128.rank)
  reducesTo_S8x64x512x128_S_d0_1_2_3 : S8x64x512x128.ReducesTo [0, 1, 2, 3] S_
  h_S_ : 0 < S_.numel
  bcast_S_S19x4 : S_.BroadcastsInDim S19x4 (![] : Fin 0 → Fin S19x4.rank)
  reducesTo_S19x4_S_d0_1 : S19x4.ReducesTo [0, 1] S_

variable [Facts]

def fn {F : FTy → Type} [FloatOps F] (main_arg0 : FVec F S8x64x512x128 .f32) (main_arg1 : FVec F S19x4 .f32) (main_arg2 : IVec S8x128 32) : IVec S_ 1 :=
  let main_v0 : FVec F S8x64x512x128 .f32 := Host.absf main_arg0
  let main_cst : FVec F S_ .f32 := constant S_ .f32 0x7F800000#32
  let main_v1 : FVec F S8x64x512x128 .f32 := broadcastInDim S8x64x512x128 ![] bcast_S_S8x64x512x128 main_cst
  let main_v2 : IVec S8x64x512x128 1 := cmpf .olt main_v0 main_v1
  let main_c : IVec S_ 1 := constantI S_ 1 1#1
  let main_v3 : IVec S_ 1 := (fun x v => Host.reduce IntOp.andi x v reducesTo_S8x64x512x128_S_d0_1_2_3 h_S_) main_v2 main_c
  let main_v4 : FVec F S19x4 .f32 := Host.absf main_arg1
  let main_cst_0 : FVec F S_ .f32 := constant S_ .f32 0x7F800000#32
  let main_v5 : FVec F S19x4 .f32 := broadcastInDim S19x4 ![] bcast_S_S19x4 main_cst_0
  let main_v6 : IVec S19x4 1 := cmpf .olt main_v4 main_v5
  let main_c_1 : IVec S_ 1 := constantI S_ 1 1#1
  let main_v7 : IVec S_ 1 := (fun x v => Host.reduce IntOp.andi x v reducesTo_S19x4_S_d0_1 h_S_) main_v6 main_c_1
  let main_v8 : IVec S_ 1 := andi main_v3 main_v7
  main_v8
-- ==== Kernel.lean ====
abbrev S8x64x512x128 : Shape := ⟨4, ![8, 64, 512, 128]⟩
abbrev S19x4 : Shape := ⟨2, ![19, 4]⟩
abbrev S8x128 : Shape := ⟨2, ![8, 128]⟩
abbrev S_ : Shape := ⟨0, ![]⟩
abbrev S8x128x1 : Shape := ⟨3, ![8, 128, 1]⟩
abbrev S8x128x4 : Shape := ⟨3, ![8, 128, 4]⟩
abbrev S8x4x128 : Shape := ⟨3, ![8, 4, 128]⟩
abbrev S8x4x1x128 : Shape := ⟨4, ![8, 4, 1, 128]⟩
abbrev S1x32x512x128 : Shape := ⟨4, ![1, 32, 512, 128]⟩
abbrev S1x4x1x128 : Shape := ⟨4, ![1, 4, 1, 128]⟩
abbrev S1x1x1x128 : Shape := ⟨4, ![1, 1, 1, 128]⟩

abbrev nBuf : Space → Nat
  | .hbm => 15
  | .vmem => 6
  | .smem => 0
  | _ => 0

abbrev bufTy : (tb : Table) → Fin (tcTables nBuf tb) → BufTy
  | .hbm, ⟨0, _⟩ => ⟨S8x64x512x128, .f32⟩
  | .hbm, ⟨1, _⟩ => ⟨S19x4, .f32⟩
  | .hbm, ⟨2, _⟩ => ⟨S8x128, .i32⟩
  | .hbm, ⟨3, _⟩ => ⟨S_, .i32⟩
  | .hbm, ⟨4, _⟩ => ⟨S8x128, .i32⟩
  | .hbm, ⟨5, _⟩ => ⟨S8x128, .i1⟩
  | .hbm, ⟨6, _⟩ => ⟨S_, .i32⟩
  | .hbm, ⟨7, _⟩ => ⟨S8x128, .i32⟩
  | .hbm, ⟨8, _⟩ => ⟨S8x128, .i32⟩
  | .hbm, ⟨9, _⟩ => ⟨S8x128, .i32⟩
  | .hbm, ⟨10, _⟩ => ⟨S8x128x1, .i32⟩
  | .hbm, ⟨11, _⟩ => ⟨S8x128x4, .f32⟩
  | .hbm, ⟨12, _⟩ => ⟨S8x4x128, .f32⟩
  | .hbm, ⟨13, _⟩ => ⟨S8x4x1x128, .f32⟩
  | .hbm, ⟨14, _⟩ => ⟨S8x64x512x128, .f32⟩
  | .local _ .vmem, ⟨0, _⟩ => ⟨S1x32x512x128, .f32⟩
  | .local _ .vmem, ⟨1, _⟩ => ⟨S1x32x512x128, .f32⟩
  | .local _ .vmem, ⟨2, _⟩ => ⟨S1x4x1x128, .f32⟩
  | .local _ .vmem, ⟨3, _⟩ => ⟨S1x4x1x128, .f32⟩
  | .local _ .vmem, ⟨4, _⟩ => ⟨S1x32x512x128, .f32⟩
  | .local _ .vmem, ⟨5, _⟩ => ⟨S1x32x512x128, .f32⟩
  | _, _ => ⟨S8x64x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x32x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x32x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bcast_S_S8x128 : S_.BroadcastsInDim S8x128 (![] : Fin 0 → Fin S8x128.rank)
  bcast_S8x128_S8x128x1_0_1 : S8x128.BroadcastsInDim S8x128x1 (![0, 1] : Fin 2 → Fin S8x128x1.rank)
  transposes_S8x128x4_S8x4x128_0_2_1 : S8x128x4.Transposes [0, 2, 1] S8x4x128
  bcast_S8x4x128_S8x4x1x128_0_1_3 : S8x4x128.BroadcastsInDim S8x4x1x128 (![0, 1, 3] : Fin 3 → Fin S8x4x1x128.rank)
  inb_S1x32x512x128_S1x32x512x128_0_0_0_0 : ∀ a, (![0, 0, 0, 0] : Fin 4 → Nat) a + S1x32x512x128.size a ≤ S1x32x512x128.size a
  h_S1x32x512x128 : 0 < S1x32x512x128.numel
  inb_S1x4x1x128_S1x4x1x128_0_0_0_0 : ∀ a, (![0, 0, 0, 0] : Fin 4 → Nat) a + S1x4x1x128.size a ≤ S1x4x1x128.size a
  h_S1x4x1x128 : 0 < S1x4x1x128.numel
  shapeCasts_S1x4x1x128_S1x4x1x128 : S1x4x1x128.ShapeCasts S1x4x1x128
  slices_S1x4x1x128_o0_0_0_0_S1x1x1x128 : S1x4x1x128.Slices ![0, 0, 0, 0] S1x1x1x128
  slices_S1x4x1x128_o0_1_0_0_S1x1x1x128 : S1x4x1x128.Slices ![0, 1, 0, 0] S1x1x1x128
  slices_S1x4x1x128_o0_2_0_0_S1x1x1x128 : S1x4x1x128.Slices ![0, 2, 0, 0] S1x1x1x128
  slices_S1x4x1x128_o0_3_0_0_S1x1x1x128 : S1x4x1x128.Slices ![0, 3, 0, 0] S1x1x1x128
  broadcasts_S1x1x1x128_S1x32x512x128 : S1x1x1x128.Broadcasts S1x32x512x128
  gather_S19x4_S8x128x1_S8x128x4_2_0_n_n_0_2_14_wf : GatherDims.WF S19x4 S8x128x1 S8x128x4 [2] [0] [] [0] [] 2 ![1, 4]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x512x128.size a ≤ S8x64x512x128.size a
  hwx0_0 : ∀ i : grid0.Coords, EltTy.bits .f32 = 32 ∨ (Rect.block (s := S8x64x512x128) S1x32x512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4x1x128.size a ≤ S8x4x1x128.size a
  hwx0_1 : ∀ i : grid0.Coords, EltTy.bits .f32 = 32 ∨ (Rect.block (s := S8x4x1x128) S1x4x1x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32x512x128.size a ≤ S8x64x512x128.size a
  hwx0_2 : ∀ i : grid0.Coords, EltTy.bits .f32 = 32 ∨ (Rect.block (s := S8x64x512x128) S1x32x512x128.size (cc0_transform_2 i) (hinb0_2 i)).WholeWords (EltTy.packing .f32)

variable [Facts₀]

def gather_S19x4_S8x128x1_S8x128x4_2_0_n_n_0_2_14 : GatherDims S19x4 S8x128x1 S8x128x4 where
  offsetDims := [2]
  collapsedSliceDims := [0]
  operandBatchingDims := []
  startIndicesBatchingDims := []
  startIndexMap := [0]
  indexVectorDim := 2
  sliceSizes := ![1, 4]
  wf := gather_S19x4_S8x128x1_S8x128x4_2_0_n_n_0_2_14_wf

abbrev win0_0 : Pipeline.Window sig grid0 :=
  Pipeline.Window.ofSpec (Memref.whole main_arg0) S1x32x512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1x4x1x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x32x512x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x64x512x128 : Shape := ⟨4, ![8, 64, 512, 128]⟩
abbrev S19x4 : Shape := ⟨2, ![19, 4]⟩
abbrev S8x128 : Shape := ⟨2, ![8, 128]⟩
abbrev S_ : Shape := ⟨0, ![]⟩
abbrev S8x128x1 : Shape := ⟨3, ![8, 128, 1]⟩
abbrev S8x128x4 : Shape := ⟨3, ![8, 128, 4]⟩
abbrev S8x1x1x128 : Shape := ⟨4, ![8, 1, 1, 128]⟩

abbrev nBuf : Space → Nat
  | .hbm => 34
  | .vmem => 0
  | .smem => 0
  | _ => 0

abbrev bufTy : (tb : Table) → Fin (tcTables nBuf tb) → BufTy
  | .hbm, ⟨0, _⟩ => ⟨S8x64x512x128, .f32⟩
  | .hbm, ⟨1, _⟩ => ⟨S19x4, .f32⟩
  | .hbm, ⟨2, _⟩ => ⟨S8x128, .i32⟩
  | .hbm, ⟨3, _⟩ => ⟨S_, .i32⟩
  | .hbm, ⟨4, _⟩ => ⟨S8x128, .i32⟩
  | .hbm, ⟨5, _⟩ => ⟨S8x128, .i1⟩
  | .hbm, ⟨6, _⟩ => ⟨S_, .i32⟩
  | .hbm, ⟨7, _⟩ => ⟨S8x128, .i32⟩
  | .hbm, ⟨8, _⟩ => ⟨S8x128, .i32⟩
  | .hbm, ⟨9, _⟩ => ⟨S8x128, .i32⟩
  | .hbm, ⟨10, _⟩ => ⟨S8x128x1, .i32⟩
  | .hbm, ⟨11, _⟩ => ⟨S8x128x4, .f32⟩
  | .hbm, ⟨12, _⟩ => ⟨S8x128x1, .f32⟩
  | .hbm, ⟨13, _⟩ => ⟨S8x128, .f32⟩
  | .hbm, ⟨14, _⟩ => ⟨S8x1x1x128, .f32⟩
  | .hbm, ⟨15, _⟩ => ⟨S8x128x1, .f32⟩
  | .hbm, ⟨16, _⟩ => ⟨S8x128, .f32⟩
  | .hbm, ⟨17, _⟩ => ⟨S8x1x1x128, .f32⟩
  | .hbm, ⟨18, _⟩ => ⟨S8x128x1, .f32⟩
  | .hbm, ⟨19, _⟩ => ⟨S8x128, .f32⟩
  | .hbm, ⟨20, _⟩ => ⟨S8x1x1x128, .f32⟩
  | .hbm, ⟨21, _⟩ => ⟨S8x128x1, .f32⟩
  | .hbm, ⟨22, _⟩ => ⟨S8x128, .f32⟩
  | .hbm, ⟨23, _⟩ => ⟨S8x1x1x128, .f32⟩
  | .hbm, ⟨24, _⟩ => ⟨S8x64x512x128, .f32⟩
  | .hbm, ⟨25, _⟩ => ⟨S8x64x512x128, .f32⟩
  | .hbm, ⟨26, _⟩ => ⟨S8x64x512x128, .f32⟩
  | .hbm, ⟨27, _⟩ => ⟨S8x64x512x128, .f32⟩
  | .hbm, ⟨28, _⟩ => ⟨S8x64x512x128, .f32⟩
  | .hbm, ⟨29, _⟩ => ⟨S8x64x512x128, .f32⟩
  | .hbm, ⟨30, _⟩ => ⟨S8x64x512x128, .f32⟩
  | .hbm, ⟨31, _⟩ => ⟨S8x64x512x128, .f32⟩
  | .hbm, ⟨32, _⟩ => ⟨S8x64x512x128, .f32⟩
  | .hbm, ⟨33, _⟩ => ⟨S8x64x512x128, .f32⟩
  | _, _ => ⟨S8x64x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩

abbrev nD : Nat := 1
abbrev τ : Topo := Topo.v7x

variable {F : FTy → Type} [FloatOps F]

class Facts₀ : Prop where
  bcast_S_S8x128 : S_.BroadcastsInDim S8x128 (![] : Fin 0 → Fin S8x128.rank)
  bcast_S8x128_S8x128x1_0_1 : S8x128.BroadcastsInDim S8x128x1 (![0, 1] : Fin 2 → Fin S8x128x1.rank)
  slices_S8x128x4_S8x128x1_0_0_0 : S8x128x4.Slices ![0, 0, 0] S8x128x1
  shapeCasts_S8x128x1_S8x128 : S8x128x1.ShapeCasts S8x128
  bcast_S8x128_S8x1x1x128_0_3 : S8x128.BroadcastsInDim S8x1x1x128 (![0, 3] : Fin 2 → Fin S8x1x1x128.rank)
  slices_S8x128x4_S8x128x1_0_0_1 : S8x128x4.Slices ![0, 0, 1] S8x128x1
  slices_S8x128x4_S8x128x1_0_0_2 : S8x128x4.Slices ![0, 0, 2] S8x128x1
  slices_S8x128x4_S8x128x1_0_0_3 : S8x128x4.Slices ![0, 0, 3] S8x128x1
  bcast_S8x1x1x128_S8x64x512x128_0_1_2_3 : S8x1x1x128.BroadcastsInDim S8x64x512x128 (![0, 1, 2, 3] : Fin 4 → Fin S8x64x512x128.rank)
  gather_S19x4_S8x128x1_S8x128x4_2_0_n_n_0_2_14_wf : GatherDims.WF S19x4 S8x128x1 S8x128x4 [2] [0] [] [0] [] 2 ![1, 4]

variable [Facts₀]

def gather_S19x4_S8x128x1_S8x128x4_2_0_n_n_0_2_14 : GatherDims S19x4 S8x128x1 S8x128x4 where
  offsetDims := [2]
  collapsedSliceDims := [0]
  operandBatchingDims := []
  startIndicesBatchingDims := []
  startIndexMap := [0]
  indexVectorDim := 2
  sliceSizes := ![1, 4]
  wf := gather_S19x4_S8x128x1_S8x128x4_2_0_n_n_0_2_14_wf

class Facts : Prop extends Facts₀ where

variable [Facts]
-- ==== Proof.Spec.lean ====
/-
  The function both programs compute, stated once over the extended reals.

  An entry of the result is addressed by a mask row `m`, a sample `n`, a batch entry `b` and a mask entry `l`.
  Four parameters belong to the pair `(m, l)`: the row of the parameter table that the mask selects for that
  pair, gathered beforehand into a table `g` of shape [8, 128, 4]. The result is

      out (m, n, b, l) = -( g (m, l, 0) + g (m, l, 1) * tanh ( (z (m, n, b, l) - g (m, l, 2)) * g (m, l, 3) ) ),

  one value of `z` and the four parameters of its pair per entry: nothing is summed and no factor is moved across
  a sum, so the two programs agree on every extended real and finiteness of the inputs is never used.
-/
import Idealize.ShloMosaic.PureOps.Ideal
import Idealize.ShloMosaic.PureOps.Ideal.Laws
import Idealize.ShloMosaic.Lib.ValueIdx

noncomputable section

namespace Cert.GatherTanh

open Idealize.ShloMosaic Idealize.ShloMosaic.ValueIdx

/-- The shape of `z` and of the result: mask row, sample, batch entry, mask entry. -/
abbrev Arr : Shape := ⟨4, ![8, 64, 512, 128]⟩
/-- The shape of the gathered table: mask row, mask entry, parameter. -/
abbrev Tab : Shape := ⟨3, ![8, 128, 4]⟩

/-- Where parameter `k` of the entry `i = (m, n, b, l)` sits in the gathered table: at `(m, l, k)`. It depends on
    the mask row and the mask entry only, not on the sample or the batch entry. -/
abbrev par (i : Arr.Idx) (k : Fin 4) : Tab.Idx :=
  ix3 (⟨(i 0).val, (i 0).isLt⟩ : Fin 8) (⟨(i 3).val, (i 3).isLt⟩ : Fin 128) k

/-- The result as one function of `z` and the gathered table, entry by entry:
    `-(g₀ + g₁ * tanh ((z - g₂) * g₃))` with `gₖ` the entry's `k`-th parameter. -/
def response (z : Arr.Idx → EReal) (g : Tab.Idx → EReal) : Arr.Idx → EReal := fun i =>
  -(g (par i 0) + g (par i 1) * Ideal.tanh ((z i - g (par i 2)) * g (par i 3)))

theorem response_apply (z : Arr.Idx → EReal) (g : Tab.Idx → EReal) (i : Arr.Idx) :
    response z g i = -(g (par i 0) + g (par i 1) * Ideal.tanh ((z i - g (par i 2)) * g (par i 3))) := rfl

/-- Subtracting from the zero word is negation: `0 - x = -x` on every extended real, the infinities included. -/
theorem zero_word_sub (x : EReal) :
    FloatOps.subf (F := Ideal) (φ := .f32) (Scalar.ofBits .f32 0x00000000#32) x = -x := by
  show Ideal.ofBits .f32 0x00000000#32 - x = -x
  rw [Ideal.ofBits_zero_f32, zero_sub]

end Cert.GatherTanh

end
-- ==== Proof.KernelValue.lean ====
/-
  The kernel's result array, after the run, is the response function of `z` and the gathered table.

  Before the region @main gathers the table `g` of shape [8, 128, 4] and re-lays it as `e` of shape [8, 4, 1, 128]
  with `e (m, k, 0, l) = g (m, l, k)` (a transpose of the last two axes, then a unit axis inserted). The grid has
  8 × 2 points; the point `(m, h)` stages the block `z (m, 32 h … 32 h + 31, ·, ·)` and the block `e (m, ·, 0, ·)`,
  and writes back the block of the result at the same place as the block of `z`. Inside a block the body slices the
  four parameters out of `e`'s block, broadcasts each over the samples and the batch, and computes
  `0 - (e₀ + e₁ * tanh ((z - e₂) * e₃))` pointwise. So the block written at `(m, h)` is the response function read
  through that block; the sixteen blocks tile the array (entry `(m, n, b, l)` lies in the block `(m, n / 32)`), hence
  the whole array ends at the response function.
-/
import proofs.«120723_j45406394253466_2_alg».proof.Proof.Gen.KernelIdeal.Value
import proofs.«120723_j45406394253466_2_alg».proof.Proof.Spec
import Idealize.ShloMosaic.Lib.Pipeline.Value
import Idealize.ShloMosaic.Lib.StableHlo.Run

noncomputable section

namespace Cert.KernelIdeal.ArrayValue

open Cert.KernelIdeal Cert.KernelIdeal.Gen Idealize.ShloMosaic Idealize.ShloMosaic.TcCoe Idealize.SL.Sem
open Idealize.ShloMosaic.Pipeline (Dat)
open Idealize.ShloMosaic.ValueIdx Cert.GatherTanh

variable (m : (ℓ : Loc nD τ sig) → Buf (Elt Ideal) ℓ) (ρ : Dev nD → PrngReg)

/-! ## The gathered table and its re-laid copy -/

/-- The gathered table as @main computes it before the region: for every pair `(m, l)` the row of the parameter
    table that the mask selects, a negative mask value counted from the end of the table (`Mask + 19`). The
    reference computes the same table by the same operations; it is carried whole and never opened. -/
def table (eta : (⟨S19x4, .f32⟩ : BufTy).Contents (Elt Ideal)) (mask : (⟨S8x128, .i32⟩ : BufTy).Contents (Elt Ideal)) :
    (⟨S8x128x4, .f32⟩ : BufTy).Contents (Elt Ideal) :=
  Host.gather gather_S19x4_S8x128x1_S8x128x4_2_0_n_n_0_2_14 eta
    (broadcastInDim S8x128x1 ![0, 1] bcast_S8x128_S8x128x1_0_1
      (select (cmpi .slt mask (broadcastInDim S8x128 ![] bcast_S_S8x128 (constantI S_ 32 0#32)))
        (addi mask (broadcastInDim S8x128 ![] bcast_S_S8x128 (constantI S_ 32 19#32))) mask))

/-- The array window 1 stages, as the region finds it: the gathered table with its last two axes exchanged and a
    unit axis inserted before the last. -/
theorem packed_eq (c : Dev nD) :
    (V m c main_v8 : (⟨S8x4x1x128, .f32⟩ : BufTy).Contents (Elt Ideal))
      = broadcastInDim S8x4x1x128 ![0, 1, 3] bcast_S8x4x128_S8x4x1x128_0_1_3
          (transpose S8x4x128 [0, 2, 1]
            (table (m ((c : Thread nD τ).loc main_arg1)) (m ((c : Thread nD τ).loc main_arg2)))
            transposes_S8x128x4_S8x4x128_0_2_1) := by
  dsimp only [Gen.V, Gen.hostOps0]
  after_results
  rfl

/-- Read at an index: entry `(p, q, 0, l)` of the re-laid array is entry `(p, l, q)` of the gathered table. -/
theorem packed_apply (c : Dev nD) (p : Fin 8) (q : Fin 4) (l : Fin 128) :
    (V m c main_v8 : (⟨S8x4x1x128, .f32⟩ : BufTy).Contents (Elt Ideal)) (ix4 p q (0 : Fin 1) l)
      = table (m ((c : Thread nD τ).loc main_arg1)) (m ((c : Thread nD τ).loc main_arg2)) (ix3 p l q) := by
  rw [packed_eq]
  refine (broadcastInDim_apply _ bcast_S8x4x128_S8x4x1x128_0_1_3 _ _ (ix3 p q l) (fun a => match a with
    | ⟨0, _⟩ => by show p.val = if (8 : Nat) = 1 then 0 else p.val; rw [if_neg (by decide)]
    | ⟨1, _⟩ => by show q.val = if (4 : Nat) = 1 then 0 else q.val; rw [if_neg (by decide)]
    | ⟨2, _⟩ => by show l.val = if (128 : Nat) = 1 then 0 else l.val; rw [if_neg (by decide)])).trans ?_
  exact transpose_apply [0, 2, 1] _ transposes_S8x128x4_S8x4x128_0_2_1 (ix3 p q l) (ix3 p l q) (fun b => match b with
    | ⟨0, _⟩ => rfl
    | ⟨1, _⟩ => rfl
    | ⟨2, _⟩ => rfl)

/-! ## One block -/

theorem origin : (![0, 0, 0, 0] : Fin 4 → Nat) = fun _ => 0 := funext fun a => by fin_cases a <;> rfl

/-- What the body leaves at a block index `y = (0, n', b, l)`, from the two loaded blocks: the four parameters are
    the parameter block at `(0, k, 0, l)`, the value of `z` the block's own entry, and `0 - x` is `-x`. -/
theorem block_apply (x0 : Vec Ideal S1x32x512x128 .f32) (x1 : Vec Ideal S1x4x1x128 .f32) (y : S1x32x512x128.Idx) :
    out0_2 x0 x1 y
      = -(x1 (Value.ix2_0 y) + x1 (Value.ix2_1 y) * Ideal.tanh ((x0 (Value.ix2_2 y) - x1 (Value.ix2_3 y)) * x1 (Value.ix2_4 y))) := by
  unfold out0_2
  simp only [View.ld_unit_zero (S := S1x32x512x128) origin, View.ld_unit_zero (S := S1x4x1x128) origin]
  refine (Value.canon2_eq x1 x0 y).trans ?_
  exact zero_word_sub _

/-- The printed index maps, decided over the sixteen points: the block of `z` and the block of the result sit at the
    same place `(m, h, 0, 0)` with `m ≤ 7`, `h ≤ 1`; the parameter block sits at `(m, 0, 0, 0)`. -/
theorem idx_facts : ∀ t : Fin cfg0.N,
    win0_0.index t (0 : Fin 4) = win0_2.index t (0 : Fin 4)
    ∧ win0_0.index t (1 : Fin 4) = win0_2.index t (1 : Fin 4)
    ∧ win0_0.index t (2 : Fin 4) = 0
    ∧ win0_0.index t (3 : Fin 4) = 0
    ∧ win0_1.index t (0 : Fin 4) = win0_2.index t (0 : Fin 4)
    ∧ win0_1.index t (1 : Fin 4) = 0
    ∧ win0_1.index t (2 : Fin 4) = 0
    ∧ win0_1.index t (3 : Fin 4) = 0
    ∧ win0_2.index t (0 : Fin 4) ≤ 7
    ∧ win0_2.index t (1 : Fin 4) ≤ 1
    ∧ win0_2.index t (2 : Fin 4) = 0
    ∧ win0_2.index t (3 : Fin 4) = 0 :=
  (by decide +kernel : ∀ t : Fin grid0.N, _)

/-- Every block place `(m, h, 0, 0)` is some point's. -/
theorem idx_onto : ∀ (q0 : Fin 8) (q1 : Fin 2), ∃ t : Fin cfg0.N, win0_2.index t = ![q0.val, q1.val, 0, 0] :=
  (by decide +kernel : ∀ (q0 : Fin 8) (q1 : Fin 2), ∃ t : Fin grid0.N, win0_2.index t = ![q0.val, q1.val, 0, 0])

/-- The block of `z` at point `t`, read at the block index `(0, n', b, l)`, is `z` at the array index the result's
    block puts `(j₀, n', b, l)` at: the two blocks sit at the same place and `j₀ = 0`. -/
theorem z_read (c : Dev nD) (t : Fin cfg0.N) (j : S1x32x512x128.Idx) :
    iblk m c 0 t (Value.ix2_2 j) = V m c main_arg0 (((cfg0.win 2).blk t).view.emb j) := by
  obtain ⟨e0, e1, e2, e3, f0, f1, f2, f3, b0, b1, o2, o3⟩ := idx_facts t
  have hj0 : (j 0).val < 1 := (j 0).isLt
  show V m c main_arg0 (((cfg0.win 0).blk t).view.emb (Value.ix2_2 j)) = V m c main_arg0 (((cfg0.win 2).blk t).view.emb j)
  refine congrArg (V m c main_arg0) ?_
  funext a; apply Fin.ext
  match a with
  | ⟨0, _⟩ => show win0_0.index t (0 : Fin 4) * 1 + 1 * 0 = win0_2.index t (0 : Fin 4) * 1 + 1 * (j 0).val; omega
  | ⟨1, _⟩ => show win0_0.index t (1 : Fin 4) * 32 + 1 * (j 1).val = win0_2.index t (1 : Fin 4) * 32 + 1 * (j 1).val; omega
  | ⟨2, _⟩ => show win0_0.index t (2 : Fin 4) * 512 + 1 * (j 2).val = win0_2.index t (2 : Fin 4) * 512 + 1 * (j 2).val; omega
  | ⟨3, _⟩ => show win0_0.index t (3 : Fin 4) * 128 + 1 * (j 3).val = win0_2.index t (3 : Fin 4) * 128 + 1 * (j 3).val; omega

/-- The parameter block at point `t`, read at `(0, q, 0, l)`, is parameter `q` of the array entry the result's block
    puts `(j₀, n', b, l)` at: the parameter block sits at the result block's mask row, and the re-laid array there
    is the gathered table at `(m, l, q)`. -/
theorem param_read (c : Dev nD) (t : Fin cfg0.N) (j : S1x32x512x128.Idx) (q : Fin 4) (y : S1x4x1x128.Idx)
    (h0 : (y 0).val = 0) (h1 : (y 1).val = q.val) (h2 : (y 2).val = 0) (h3 : (y 3).val = (j 3).val) :
    iblk m c 1 t y
      = table (m ((c : Thread nD τ).loc main_arg1)) (m ((c : Thread nD τ).loc main_arg2))
          (par (((cfg0.win 2).blk t).view.emb j) q) := by
  obtain ⟨e0, e1, e2, e3, f0, f1, f2, f3, b0, b1, o2, o3⟩ := idx_facts t
  have hj0 : (j 0).val < 1 := (j 0).isLt
  have hj3 : (j 3).val < 128 := (j 3).isLt
  show V m c main_v8 (((cfg0.win 1).blk t).view.emb y) = _
  have e : ((cfg0.win 1).blk t).view.emb y
      = ix4 (⟨win0_2.index t (0 : Fin 4), by omega⟩ : Fin 8) q (0 : Fin 1) (⟨(j 3).val, hj3⟩ : Fin 128) := by
    funext a; apply Fin.ext
    match a with
    | ⟨0, _⟩ => show win0_1.index t (0 : Fin 4) * 1 + 1 * (y 0).val = win0_2.index t (0 : Fin 4); omega
    | ⟨1, _⟩ => show win0_1.index t (1 : Fin 4) * 4 + 1 * (y 1).val = q.val; omega
    | ⟨2, _⟩ => show win0_1.index t (2 : Fin 4) * 1 + 1 * (y 2).val = 0; omega
    | ⟨3, _⟩ => show win0_1.index t (3 : Fin 4) * 128 + 1 * (y 3).val = (j 3).val; omega
  rw [e, packed_apply]
  refine congrArg _ ?_
  funext a; apply Fin.ext
  match a with
  | ⟨0, _⟩ => show win0_2.index t (0 : Fin 4) = win0_2.index t (0 : Fin 4) * 1 + 1 * (j 0).val; omega
  | ⟨1, _⟩ => show (j 3).val = win0_2.index t (3 : Fin 4) * 128 + 1 * (j 3).val; omega
  | ⟨2, _⟩ => rfl

/-- WHAT POINT `t` WRITES BACK is block `t` of the response function of `z` and the gathered table. -/
theorem flushed_eq (c : Dev nD) (t : Fin cfg0.N) :
    (dats m 0 c).flushed 2 t = ((cfg0.win 2).blk t).view.read (Elt Ideal)
      (response (V m c main_arg0) (table (m ((c : Thread nD τ).loc main_arg1)) (m ((c : Thread nD τ).loc main_arg2)))) := by
  rw [Value.flushed2]
  funext j
  show out0_2 (iblk m c 0 t) (iblk m c 1 t) j
    = response (V m c main_arg0) (table (m ((c : Thread nD τ).loc main_arg1)) (m ((c : Thread nD τ).loc main_arg2)))
        (((cfg0.win 2).blk t).view.emb j)
  refine (block_apply (iblk m c 0 t) (iblk m c 1 t) j).trans ?_
  rw [response_apply, z_read m c t j,
    param_read m c t j 0 (Value.ix2_0 j) rfl rfl rfl rfl,
    param_read m c t j 1 (Value.ix2_1 j) rfl rfl rfl rfl,
    param_read m c t j 2 (Value.ix2_3 j) rfl rfl rfl rfl,
    param_read m c t j 3 (Value.ix2_4 j) rfl rfl rfl rfl]

/-! ## The blocks tile the array -/

/-- An index of the array is in point `t`'s block iff each coordinate is in the block's range on its axis. -/
theorem mem_blk (t : Fin cfg0.N) (i : S8x64x512x128.Idx) :
    i ∈ ((cfg0.win 2).blk t).view.set ↔ ∀ a : Fin 4, win0_2.index t a * S1x32x512x128.size a ≤ (i a).val
      ∧ (i a).val < win0_2.index t a * S1x32x512x128.size a + S1x32x512x128.size a := by
  show i ∈ ((View.whole main_v9).slice (win0_2.rect t)).set ↔ _
  rw [View.set_slice_whole, Rect.mem_set_unit]
  exact Iff.rfl

/-- Every entry `(m, n, b, l)` of the array lies in the block of the point at `(m, n / 32)`, which writes back. -/
theorem cover (i : S8x64x512x128.Idx) :
    ∃ t : Fin cfg0.N, (cfg0.win 2).flush t = true ∧ i ∈ ((cfg0.win 2).blk t).view.set := by
  have hi0 : (i 0).val < 8 := (i 0).isLt
  have hi1 : (i 1).val < 64 := (i 1).isLt
  have hi2 : (i 2).val < 512 := (i 2).isLt
  have hi3 : (i 3).val < 128 := (i 3).isLt
  obtain ⟨t, ht⟩ := idx_onto ⟨(i 0).val, hi0⟩ ⟨(i 1).val / 32, by omega⟩
  have q0 : win0_2.index t (0 : Fin 4) = (i 0).val := congrFun ht 0
  have q1 : win0_2.index t (1 : Fin 4) = (i 1).val / 32 := congrFun ht 1
  have q2 : win0_2.index t (2 : Fin 4) = 0 := congrFun ht 2
  have q3 : win0_2.index t (3 : Fin 4) = 0 := congrFun ht 3
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 32 ≤ (i 1).val ∧ (i 1).val < win0_2.index t (1 : Fin 4) * 32 + 32; omega
  | ⟨2, _⟩ => show win0_2.index t (2 : Fin 4) * 512 ≤ (i 2).val ∧ (i 2).val < win0_2.index t (2 : Fin 4) * 512 + 512; omega
  | ⟨3, _⟩ => show win0_2.index t (3 : Fin 4) * 128 ≤ (i 3).val ∧ (i 3).val < win0_2.index t (3 : Fin 4) * 128 + 128; omega

/-! ## The array after the run, and the run -/

/-- THE RESULT ARRAY after the run is the response function of the argument `z` and the gathered table: every block
    is the function's (`flushed_eq`), the blocks cover the array (`cover`), and no host operation before the region
    writes `z`. -/
theorem final (c : Dev nD) :
    (dats m 0 c).arrAt 2 cfg0.N
      = response (m ((c : Thread nD τ).loc main_arg0))
          (table (m ((c : Thread nD τ).loc main_arg1)) (m ((c : Thread nD τ).loc main_arg2))) := by
  rw [← V_main_arg0 m c]
  exact (dats m 0 c).arrAt_eq_of_cover 2 _ (fun t _ => flushed_eq m c t) cover

/-- The kernel's run re-posted: the result array at the response function of the arguments, the arguments unchanged. -/
theorem run : θ_run defs (onTc (τ := τ) (main (F := Ideal))) ⟨m, fun _ => 0, ρ⟩ fun r => ∀ c : Dev nD,
      r.2.mem ((c : Thread nD τ).loc main_v9)
        = response (m ((c : Thread nD τ).loc main_arg0))
            (table (m ((c : Thread nD τ).loc main_arg1)) (m ((c : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.ArrayValue

end
-- ==== Proof.ReferenceValue.lean ====
/-
  The reference's result, entry by entry, is the response function of `z` and the gathered table.

  The reference reaches parameter `k` of the entry `(m, n, b, l)` through four layout steps: the slice of the
  gathered table at parameter `k`, the reshape that drops the slice's unit axis, the broadcast that inserts the
  sample and batch axes as unit axes, and the broadcast of those two axes to their full extents. Composed, the four
  steps read the table at `(m, l, k)`: the row-major position `m * 128 + l` of the reshape splits back into
  `m` and `l` because `l < 128`. What is left is pointwise: a subtraction, two products, a sum, a hyperbolic
  tangent and a negation, each the textbook operation on the extended reals.
-/
import proofs.«120723_j45406394253466_2_alg».proof.Proof.Gen.ReferenceIdeal.Read
import proofs.«120723_j45406394253466_2_alg».proof.Proof.Spec

noncomputable section

namespace Cert.ReferenceIdeal.ArrayValue

open Cert.ReferenceIdeal Cert.ReferenceIdeal.Gen Cert.ReferenceIdeal.Read Idealize.ShloMosaic Idealize.ShloMosaic.TcCoe
open Idealize.ShloMosaic.ValueIdx Cert.GatherTanh

/-- Slice at parameter 0, reshape, insert the unit axes, broadcast: the table is read at `(m, l, 0)`. -/
theorem par0 (i : S8x64x512x128.Idx) : idx_main_v7 (idx_main_v8 (idx_main_v9 (idx_main_v26 i))) = par i 0 := by
  have h0 : (i 0).val < 8 := (i 0).isLt
  have h3 : (i 3).val < 128 := (i 3).isLt
  funext a; apply Fin.ext
  match a with
  | ⟨0, _⟩ => show ((i 0).val * 128 + (i 3).val) / 128 = (i 0).val; omega
  | ⟨1, _⟩ => show ((i 0).val * 128 + (i 3).val) / 1 % 128 = (i 3).val; omega
  | ⟨2, _⟩ => rfl

/-- The same four steps from the slice at parameter 1: the table is read at `(m, l, 1)`. -/
theorem par1 (i : S8x64x512x128.Idx) : idx_main_v10 (idx_main_v11 (idx_main_v12 (idx_main_v24 i))) = par i 1 := by
  have h0 : (i 0).val < 8 := (i 0).isLt
  have h3 : (i 3).val < 128 := (i 3).isLt
  funext a; apply Fin.ext
  match a with
  | ⟨0, _⟩ => show ((i 0).val * 128 + (i 3).val) / 128 = (i 0).val; omega
  | ⟨1, _⟩ => show ((i 0).val * 128 + (i 3).val) / 1 % 128 = (i 3).val; omega
  | ⟨2, _⟩ => rfl

/-- From the slice at parameter 2: the table is read at `(m, l, 2)`. -/
theorem par2 (i : S8x64x512x128.Idx) : idx_main_v13 (idx_main_v14 (idx_main_v15 (idx_main_v19 i))) = par i 2 := by
  have h0 : (i 0).val < 8 := (i 0).isLt
  have h3 : (i 3).val < 128 := (i 3).isLt
  funext a; apply Fin.ext
  match a with
  | ⟨0, _⟩ => show ((i 0).val * 128 + (i 3).val) / 128 = (i 0).val; omega
  | ⟨1, _⟩ => show ((i 0).val * 128 + (i 3).val) / 1 % 128 = (i 3).val; omega
  | ⟨2, _⟩ => rfl

/-- From the slice at parameter 3: the table is read at `(m, l, 3)`. -/
theorem par3 (i : S8x64x512x128.Idx) : idx_main_v16 (idx_main_v17 (idx_main_v18 (idx_main_v21 i))) = par i 3 := by
  have h0 : (i 0).val < 8 := (i 0).isLt
  have h3 : (i 3).val < 128 := (i 3).isLt
  funext a; apply Fin.ext
  match a with
  | ⟨0, _⟩ => show ((i 0).val * 128 + (i 3).val) / 128 = (i 0).val; omega
  | ⟨1, _⟩ => show ((i 0).val * 128 + (i 3).val) / 1 % 128 = (i 3).val; omega
  | ⟨2, _⟩ => rfl

/-- THE REFERENCE'S RESULT is the response function of `z` and of the table its gather produces: each parameter
    read where the four layout steps put it (`par0` … `par3`), the pointwise operations the textbook ones, the
    host's negation and hyperbolic tangent the same functions as the response's. -/
theorem result_eq (x0 : (⟨S8x64x512x128, .f32⟩ : BufTy).Contents (Elt Ideal)) (x1 : (⟨S19x4, .f32⟩ : BufTy).Contents (Elt Ideal))
    (x2 : (⟨S8x128, .i32⟩ : BufTy).Contents (Elt Ideal)) :
    val_main_v28 (F := Ideal) x0 x1 x2 = response x0 (val_main_v6 (F := Ideal) x1 x2) := by
  funext i
  rw [val_main_v28_apply, val_main_v27_apply,
    val_main_v26_apply, val_main_v9_apply, val_main_v8_apply, val_main_v7_apply,
    val_main_v25_apply, val_main_v24_apply, val_main_v12_apply, val_main_v11_apply, val_main_v10_apply,
    val_main_v23_apply, val_main_v22_apply, val_main_v20_apply,
    val_main_v19_apply, val_main_v15_apply, val_main_v14_apply, val_main_v13_apply,
    val_main_v21_apply, val_main_v18_apply, val_main_v17_apply, val_main_v16_apply,
    par0, par1, par2, par3, response_apply]
  rfl

end Cert.ReferenceIdeal.ArrayValue

end
-- ==== Proof.lean ====
/-
  The certificate's claim: the kernel and its reference compute the same array, entry by entry, on the extended reals.

  Both programs first gather, for every mask row `m` and mask entry `l`, the row of the parameter table that the
  mask selects — the same host operations on the same arguments, so one table `g` of shape [8, 128, 4] — and both
  end with

      out (m, n, b, l) = -( g (m, l, 0) + g (m, l, 1) * tanh ( (z (m, n, b, l) - g (m, l, 2)) * g (m, l, 3) ) )

  (Proof/Spec.lean, `response`). The kernel reads the four parameters through a transposed copy of `g` staged one
  mask row at a time and writes the result block by block over a grid of 8 × 2 points, spelling the negation `0 - x`
  (Proof/KernelValue.lean); the reference reads them through slices, reshapes and broadcasts of `g` and negates
  (Proof/ReferenceValue.lean). No law of arithmetic beyond `0 - x = -x` is needed, and that one holds at the
  infinities too, so the precondition that the inputs are finite is not used. The three frame claims are the programs'
  runs with the result dropped; the idealization rewrote no operation of the kernel, so `preserves` asks nothing.
-/
import proofs.«120723_j45406394253466_2_alg».proof.Defs
import proofs.«120723_j45406394253466_2_alg».proof.Proof.Gen.Kernel
import proofs.«120723_j45406394253466_2_alg».proof.Proof.Gen.Kernel.Skeleton
import proofs.«120723_j45406394253466_2_alg».proof.Proof.Gen.Kernel.Launch
import proofs.«120723_j45406394253466_2_alg».proof.Proof.Gen.Kernel.Points
import proofs.«120723_j45406394253466_2_alg».proof.Proof.Gen.Kernel.Frame
import proofs.«120723_j45406394253466_2_alg».proof.Proof.Gen.KernelIdeal
import proofs.«120723_j45406394253466_2_alg».proof.Proof.Gen.KernelIdeal.Skeleton
import proofs.«120723_j45406394253466_2_alg».proof.Proof.Gen.KernelIdeal.Launch
import proofs.«120723_j45406394253466_2_alg».proof.Proof.Gen.KernelIdeal.Points
import proofs.«120723_j45406394253466_2_alg».proof.Proof.Gen.KernelIdeal.Frame
import proofs.«120723_j45406394253466_2_alg».proof.Proof.Gen.ReferenceIdeal
import proofs.«120723_j45406394253466_2_alg».proof.Proof.Gen.KernelIdeal.Value
import proofs.«120723_j45406394253466_2_alg».proof.Proof.Gen.ReferenceIdeal.Run
import proofs.«120723_j45406394253466_2_alg».proof.Proof.Gen.ReferenceIdeal.Read
import proofs.«120723_j45406394253466_2_alg».proof.Proof.Gen.Pre_finite_inputs
import proofs.«120723_j45406394253466_2_alg».proof.Proof.Spec
import proofs.«120723_j45406394253466_2_alg».proof.Proof.KernelValue
import proofs.«120723_j45406394253466_2_alg».proof.Proof.ReferenceValue
import Idealize.ShloMosaic.Adequacy
import Idealize.ShloMosaic.Init

noncomputable section

namespace Cert.Proof

open Idealize.ShloMosaic Idealize.ShloMosaic.TcCoe Idealize.SL.Sem Cert.GatherTanh

/-- The two programs gather the same table: the same operations — the mask compared with zero, `Mask + 19` selected
    where it is negative, the gather of the selected rows — applied to the same arguments. -/
theorem same_table (eta : (⟨Cert.KernelIdeal.S19x4, .f32⟩ : BufTy).Contents (Elt Ideal))
    (mask : (⟨Cert.KernelIdeal.S8x128, .i32⟩ : BufTy).Contents (Elt Ideal)) :
    Cert.ReferenceIdeal.Read.val_main_v6 (F := Ideal) eta mask = Cert.KernelIdeal.ArrayValue.table eta mask := rfl

theorem frame_kernel : Cert.frame_Kernel := fun m ρ _ => Cert.Kernel.Gen.frame m ρ

theorem frame_kernel_ideal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation of the kernel: nothing is asked. -/
theorem preserves : Cert.preserves_Kernel_KernelIdeal := trivial

/-- From memories that agree on the arguments, the kernel's result array ends at the response function of `z` and
    its gathered table, the reference's at the response function of `z` and its own; the arguments agree and the two
    tables are one (`same_table`). -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v28_eq _ _ _).trans
    ((Cert.ReferenceIdeal.ArrayValue.result_eq _ _ _).trans (congrArg (response _) (same_table _ _)))

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
